-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S500x1024 : Shape := ⟨2, ![500, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S500x1024 : S_.BroadcastsInDim S500x1024 (![] : Fin 0 → Fin S500x1024.rank)
  reducesTo_S500x1024_S_d0_1 : S500x1024.ReducesTo [0, 1] S_

variable [Facts]

def fn_part1 {F : FTy → Type} [FloatOps F] (main_v13 : IVec S_ 1) (main_v15 : IVec S500x1024 1) (main_c_5 : IVec S_ 1) : IVec S_ 1 :=
  let main_v16 : IVec S_ 1 := (fun x v => Host.reduce IntOp.andi x v reducesTo_S500x1024_S_d0_1 h_S_) main_v15 main_c_5
  let main_v17 : IVec S_ 1 := andi main_v13 main_v16
  main_v17

def fn {F : FTy → Type} [FloatOps F] (main_arg0 : FVec F S16x1024x1024 .f32) (main_arg1 : FVec F S500x1024 .f32) (main_arg2 : FVec F S500x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S500x1024 .f32 := Host.absf main_arg1
  let main_cst_0 : FVec F S_ .f32 := constant S_ .f32 0x7F800000#32
  let main_v5 : FVec F S500x1024 .f32 := broadcastInDim S500x1024 ![] bcast_S_S500x1024 main_cst_0
  let main_v6 : IVec S500x1024 1 := cmpf .olt main_v4 main_v5
  let main_c_1 : IVec S_ 1 := constantI S_ 1 1#1
  let main_v7 : IVec S_ 1 := (fun x v => Host.reduce IntOp.andi x v reducesTo_S500x1024_S_d0_1 h_S_) main_v6 main_c_1
  let main_v8 : IVec S_ 1 := andi main_v3 main_v7
  let main_v9 : FVec F S500x1024 .f32 := Host.absf main_arg2
  let main_cst_2 : FVec F S_ .f32 := constant S_ .f32 0x7F800000#32
  let main_v10 : FVec F S500x1024 .f32 := broadcastInDim S500x1024 ![] bcast_S_S500x1024 main_cst_2
  let main_v11 : IVec S500x1024 1 := cmpf .olt main_v9 main_v10
  let main_c_3 : IVec S_ 1 := constantI S_ 1 1#1
  let main_v12 : IVec S_ 1 := (fun x v => Host.reduce IntOp.andi x v reducesTo_S500x1024_S_d0_1 h_S_) main_v11 main_c_3
  let main_v13 : IVec S_ 1 := andi main_v8 main_v12
  let main_cst_4 : FVec F S_ .f32 := constant S_ .f32 0x00000000#32
  let main_v14 : FVec F S500x1024 .f32 := broadcastInDim S500x1024 ![] bcast_S_S500x1024 main_cst_4
  let main_v15 : IVec S500x1024 1 := cmpf .ogt main_arg2 main_v14
  let main_c_5 : IVec S_ 1 := constantI S_ 1 1#1
  fn_part1 (F := F) main_v13 main_v15 main_c_5
-- ==== Kernel.lean ====
abbrev S16x1024x1024 : Shape := ⟨3, ![16, 1024, 1024]⟩
abbrev S500x1024 : Shape := ⟨2, ![500, 1024]⟩
abbrev S16384x1024 : Shape := ⟨2, ![16384, 1024]⟩
abbrev S_ : Shape := ⟨0, ![]⟩
abbrev S500 : Shape := ⟨1, ![500]⟩
abbrev S1x500 : Shape := ⟨2, ![1, 500]⟩
abbrev S1024x500 : Shape := ⟨2, ![1024, 500]⟩
abbrev S1024x512 : Shape := ⟨2, ![1024, 512]⟩
abbrev S1x512 : Shape := ⟨2, ![1, 512]⟩
abbrev S16384x512 : Shape := ⟨2, ![16384, 512]⟩
abbrev S1024x1024 : Shape := ⟨2, ![1024, 1024]⟩
abbrev S16384x500 : Shape := ⟨2, ![16384, 500]⟩
abbrev S16x1024x500 : Shape := ⟨3, ![16, 1024, 500]⟩

abbrev nBuf : Space → Nat
  | .hbm => 41
  | .vmem => 7
  | .smem => 0
  | _ => 0

abbrev bufTy : (tb : Table) → Fin (tcTables nBuf tb) → BufTy
  | .hbm, ⟨0, _⟩ => ⟨S16x1024x1024, .f32⟩
  | .hbm, ⟨1, _⟩ => ⟨S500x1024, .f32⟩
  | .hbm, ⟨2, _⟩ => ⟨S500x1024, .f32⟩
  | .hbm, ⟨3, _⟩ => ⟨S16384x1024, .f32⟩
  | .hbm, ⟨4, _⟩ => ⟨S_, .f32⟩
  | .hbm, ⟨5, _⟩ => ⟨S500x1024, .f32⟩
  | .hbm, ⟨6, _⟩ => ⟨S500x1024, .f32⟩
  | .hbm, ⟨7, _⟩ => ⟨S500x1024, .f32⟩
  | .hbm, ⟨8, _⟩ => ⟨S_, .f32⟩
  | .hbm, ⟨9, _⟩ => ⟨S500, .f32⟩
  | .hbm, ⟨10, _⟩ => ⟨S_, .f32⟩
  | .hbm, ⟨11, _⟩ => ⟨S500, .f32⟩
  | .hbm, ⟨12, _⟩ => ⟨S500, .f32⟩
  | .hbm, ⟨13, _⟩ => ⟨S_, .f32⟩
  | .hbm, ⟨14, _⟩ => ⟨S500, .f32⟩
  | .hbm, ⟨15, _⟩ => ⟨S500, .f32⟩
  | .hbm, ⟨16, _⟩ => ⟨S500x1024, .f32⟩
  | .hbm, ⟨17, _⟩ => ⟨S500x1024, .f32⟩
  | .hbm, ⟨18, _⟩ => ⟨S_, .f32⟩
  | .hbm, ⟨19, _⟩ => ⟨S500, .f32⟩
  | .hbm, ⟨20, _⟩ => ⟨S_, .f32⟩
  | .hbm, ⟨21, _⟩ => ⟨S500, .f32⟩
  | .hbm, ⟨22, _⟩ => ⟨S500, .f32⟩
  | .hbm, ⟨23, _⟩ => ⟨S500, .f32⟩
  | .hbm, ⟨24, _⟩ => ⟨S1x500, .f32⟩
  | .hbm, ⟨25, _⟩ => ⟨S1024x500, .f32⟩
  | .hbm, ⟨26, _⟩ => ⟨S1024x500, .bf16⟩
  | .hbm, ⟨27, _⟩ => ⟨S1024x500, .f32⟩
  | .hbm, ⟨28, _⟩ => ⟨S1024x500, .bf16⟩
  | .hbm, ⟨29, _⟩ => ⟨S_, .i32⟩
  | .hbm, ⟨30, _⟩ => ⟨S_, .bf16⟩
  | .hbm, ⟨31, _⟩ => ⟨S1024x512, .bf16⟩
  | .hbm, ⟨32, _⟩ => ⟨S_, .i32⟩
  | .hbm, ⟨33, _⟩ => ⟨S_, .bf16⟩
  | .hbm, ⟨34, _⟩ => ⟨S1024x512, .bf16⟩
  | .hbm, ⟨35, _⟩ => ⟨S_, .i32⟩
  | .hbm, ⟨36, _⟩ => ⟨S_, .f32⟩
  | .hbm, ⟨37, _⟩ => ⟨S1x512, .f32⟩
  | .hbm, ⟨38, _⟩ => ⟨S16384x512, .f32⟩
  | .hbm, ⟨39, _⟩ => ⟨S16384x500, .f32⟩
  | .hbm, ⟨40, _⟩ => ⟨S16x1024x500, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_c_5 : Ref sig .tc := ⟨.hbm, 32, rfl⟩
abbrev main_call1_v0 : Ref sig .tc := ⟨.hbm, 33, rfl⟩
abbrev main_v21 : Ref sig .tc := ⟨.hbm, 34, rfl⟩
abbrev main_c_6 : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x1024_S16384x1024 : S16x1024x1024.ShapeCasts S16384x1024
  bcast_S_S500x1024 : S_.BroadcastsInDim S500x1024 (![] : Fin 0 → Fin S500x1024.rank)
  reducesTo_S500x1024_S500_d1 : S500x1024.ReducesTo [1] S500
  h_S_ : 0 < S_.numel
  bcast_S_S500 : S_.BroadcastsInDim S500 (![] : Fin 0 → Fin S500.rank)
  shapeCasts_S500_S1x500 : S500.ShapeCasts S1x500
  transposes_S500x1024_S1024x500_1_0 : S500x1024.Transposes [1, 0] S1024x500
  bitsLt_bf16_f32 : FTy.bits .bf16 < FTy.bits .f32
  pads_S1024x500_S1024x512_000_0120 : S1024x500.Pads (![0, 0] : Fin 2 → Nat) ![0, 12] ![0, 0] S1024x512
  pads_S1x500_S1x512_000_0120 : S1x500.Pads (![0, 0] : Fin 2 → Nat) ![0, 12] ![0, 0] S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S16384x512_S16384x500_0_0 : S16384x512.Slices ![0, 0] S16384x500
  shapeCasts_S16384x500_S16x1024x500 : S16384x500.ShapeCasts S16x1024x500
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S500x1024 : Shape := ⟨2, ![500, 1024]⟩
abbrev S_ : Shape := ⟨0, ![]⟩
abbrev S500 : Shape := ⟨1, ![500]⟩
abbrev S16x1024x500 : Shape := ⟨3, ![16, 1024, 500]⟩
abbrev S1x1x500 : Shape := ⟨3, ![1, 1, 500]⟩

abbrev nBuf : Space → Nat
  | .hbm => 36
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S500x1024, .f32⟩
  | .hbm, ⟨2, _⟩ => ⟨S500x1024, .f32⟩
  | .hbm, ⟨3, _⟩ => ⟨S_, .f32⟩
  | .hbm, ⟨4, _⟩ => ⟨S500x1024, .f32⟩
  | .hbm, ⟨5, _⟩ => ⟨S500x1024, .f32⟩
  | .hbm, ⟨6, _⟩ => ⟨S500x1024, .f32⟩
  | .hbm, ⟨7, _⟩ => ⟨S_, .f32⟩
  | .hbm, ⟨8, _⟩ => ⟨S500, .f32⟩
  | .hbm, ⟨9, _⟩ => ⟨S_, .f32⟩
  | .hbm, ⟨10, _⟩ => ⟨S500, .f32⟩
  | .hbm, ⟨11, _⟩ => ⟨S500, .f32⟩
  | .hbm, ⟨12, _⟩ => ⟨S_, .f32⟩
  | .hbm, ⟨13, _⟩ => ⟨S500, .f32⟩
  | .hbm, ⟨14, _⟩ => ⟨S500, .f32⟩
  | .hbm, ⟨15, _⟩ => ⟨S16x1024x1024, .f32⟩
  | .hbm, ⟨16, _⟩ => ⟨S16x1024x500, .f32⟩
  | .hbm, ⟨17, _⟩ => ⟨S500x1024, .f32⟩
  | .hbm, ⟨18, _⟩ => ⟨S16x1024x500, .f32⟩
  | .hbm, ⟨19, _⟩ => ⟨S500x1024, .f32⟩
  | .hbm, ⟨20, _⟩ => ⟨S500x1024, .f32⟩
  | .hbm, ⟨21, _⟩ => ⟨S_, .f32⟩
  | .hbm, ⟨22, _⟩ => ⟨S500, .f32⟩
  | .hbm, ⟨23, _⟩ => ⟨S_, .f32⟩
  | .hbm, ⟨24, _⟩ => ⟨S16x1024x500, .f32⟩
  | .hbm, ⟨25, _⟩ => ⟨S16x1024x500, .f32⟩
  | .hbm, ⟨26, _⟩ => ⟨S16x1024x500, .f32⟩
  | .hbm, ⟨27, _⟩ => ⟨S1x1x500, .f32⟩
  | .hbm, ⟨28, _⟩ => ⟨S16x1024x500, .f32⟩
  | .hbm, ⟨29, _⟩ => ⟨S16x1024x500, .f32⟩
  | .hbm, ⟨30, _⟩ => ⟨S_, .f32⟩
  | .hbm, ⟨31, _⟩ => ⟨S16x1024x500, .f32⟩
  | .hbm, ⟨32, _⟩ => ⟨S16x1024x500, .f32⟩
  | .hbm, ⟨33, _⟩ => ⟨S1x1x500, .f32⟩
  | .hbm, ⟨34, _⟩ => ⟨S16x1024x500, .f32⟩
  | .hbm, ⟨35, _⟩ => ⟨S16x1024x500, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S500x1024 : S_.BroadcastsInDim S500x1024 (![] : Fin 0 → Fin S500x1024.rank)
  reducesTo_S500x1024_S500_d1 : S500x1024.ReducesTo [1] S500
  h_S_ : 0 < S_.numel
  bcast_S_S500 : S_.BroadcastsInDim S500 (![] : Fin 0 → Fin S500.rank)
  bcast_S_S16x1024x500 : S_.BroadcastsInDim S16x1024x500 (![] : Fin 0 → Fin S16x1024x500.rank)
  bcast_S500_S1x1x500_2 : S500.BroadcastsInDim S1x1x500 (![2] : Fin 1 → Fin S1x1x500.rank)
  bcast_S1x1x500_S16x1024x500_0_1_2 : S1x1x500.BroadcastsInDim S16x1024x500 (![0, 1, 2] : Fin 3 → Fin S16x1024x500.rank)
  dot_S16x1024x1024_S500x1024_S16x1024x500_2_1_01_0_n_n_wf : DotDims.WF S16x1024x1024 S500x1024 S16x1024x500 [2] [1] [0, 1] [0] [] []

variable [Facts₀]

def dot_S16x1024x1024_S500x1024_S16x1024x500_2_1_01_0_n_n : DotDims S16x1024x1024 S500x1024 S16x1024x500 where
  lhsContracting := [2]
  rhsContracting := [1]
  lhsNonContracting := [0, 1]
  rhsNonContracting := [0]
  lhsBatch := []
  rhsBatch := []
  wf := dot_S16x1024x1024_S500x1024_S16x1024x500_2_1_01_0_n_n_wf

class Facts : Prop extends Facts₀ where

variable [Facts]
-- ==== Proof.LogDensity.lean ====
/-
  The diagonal-covariance Gaussian log-density of sample `(b, t)` under component `k`, written the two ways the
  two programs compute it, as functions of the argument arrays `X : [16, 1024, 1024]`, `mu, cov : [500, 1024]`
  on the extended reals:

    log N(x; mu_k, diag cov_k) = C_k − ½ · Σ_f (x_f − mu_kf)² / cov_kf,    C_k = −(d/2)·log 2π − ½ · Σ_f log cov_kf .

  With `q = Σ_f x_f² / cov_kf`, `r = Σ_f x_f · mu_kf / cov_kf`, `s = Σ_f mu_kf² / cov_kf` the square expands to
  `q − 2r + s`. One program forms `C_k − ½ · ((q − 2r) + s)`; the other first folds `C_k − ½ · s` into one
  per-component term and then forms `((C_k − ½·s) − ½·q) + r`. This module only states the two forms; that they
  agree where every quantity is a real number is proved in the module on the algebra.
-/
import Idealize.ShloMosaic.PureOps.Ideal
import Idealize.ShloMosaic.Lib.ValueIdx

noncomputable section

namespace Cert.LogDensity

open Idealize.ShloMosaic Idealize.ShloMosaic.ValueIdx

/-- The samples' shape, the parameters' shape, and the result's. -/
abbrev SX : Shape := ⟨3, ![16, 1024, 1024]⟩
abbrev SP : Shape := ⟨2, ![500, 1024]⟩
abbrev SO : Shape := ⟨3, ![16, 1024, 500]⟩

/-- The reciprocal variance `1 / cov_kf`. -/
def inv (cov : SP.Idx → EReal) (k : Fin 500) (f : Fin 1024) : EReal :=
  Ideal.div (Ideal.ofBits .f32 0x3F800000#32) (cov (ix2 k f))

/-- The normaliser `C_k = −(d/2)·log 2π − ½ · Σ_f log cov_kf` (the sum starts from the float zero). -/
def logNorm (cov : SP.Idx → EReal) (k : Fin 500) : EReal :=
  Ideal.ofBits .f32 0xC46B3F8E#32
    - Ideal.ofBits .f32 0x3F000000#32 * (Ideal.ofBits .f32 0x00000000#32 + ∑ f : Fin 1024, Ideal.log (cov (ix2 k f)))

/-- `q = Σ_f x_f² / cov_kf`. -/
def quad (X : SX.Idx → EReal) (cov : SP.Idx → EReal) (b : Fin 16) (t : Fin 1024) (k : Fin 500) : EReal :=
  ∑ f : Fin 1024, (X (ix3 b t f) * X (ix3 b t f)) * inv cov k f

/-- `r = Σ_f x_f · (mu_kf / cov_kf)`. -/
def cross (X : SX.Idx → EReal) (mu cov : SP.Idx → EReal) (b : Fin 16) (t : Fin 1024) (k : Fin 500) : EReal :=
  ∑ f : Fin 1024, X (ix3 b t f) * (mu (ix2 k f) * inv cov k f)

/-- The form with the per-component terms folded first: `((C_k − ½ · Σ_f mu·(mu/cov)) − ½·q) + r`. -/
def foldedForm (X : SX.Idx → EReal) (mu cov : SP.Idx → EReal) (b : Fin 16) (t : Fin 1024) (k : Fin 500) : EReal :=
  ((logNorm cov k
      - Ideal.ofBits .f32 0x3F000000#32
        * (Ideal.ofBits .f32 0x00000000#32 + ∑ f : Fin 1024, mu (ix2 k f) * (mu (ix2 k f) * inv cov k f)))
    - Ideal.ofBits .f32 0x3F000000#32 * quad X cov b t k)
  + cross X mu cov b t k

/-- The form with the square expanded in place: `C_k − ½ · ((q − 2r) + Σ_f (mu·mu)/cov)`. -/
def expandedForm (X : SX.Idx → EReal) (mu cov : SP.Idx → EReal) (b : Fin 16) (t : Fin 1024) (k : Fin 500) : EReal :=
  logNorm cov k
    - Ideal.ofBits .f32 0x3F000000#32
      * ((quad X cov b t k - Ideal.ofBits .f32 0x40000000#32 * cross X mu cov b t k)
          + (Ideal.ofBits .f32 0x00000000#32 + ∑ f : Fin 1024, (mu (ix2 k f) * mu (ix2 k f)) * inv cov k f))

/-- The whole result array in the folded form, index by index. -/
def folded (X : SX.Idx → EReal) (mu cov : SP.Idx → EReal) : SO.Idx → EReal :=
  fun i => foldedForm X mu cov (i 0) (i 1) (i 2)

end Cert.LogDensity

end
-- ==== Proof.Consts.lean ====
/-
  The float constants the two programs spell, as the extended reals their bit patterns denote.
  One module states them all, so that the pattern decoder is unfolded in one place only.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0`, the numerator of the reciprocal variance, denotes `1`. -/
theorem ofBits_one : Ideal.ofBits .f32 0x3F800000#32 = ((1 : ℝ) : EReal) := by
  simp [Ideal.ofBits, Ideal.ieee, -EReal.coe_mul]; norm_num

/-- `0.5`, the factor in front of every quadratic term, denotes the real `1/2`. -/
theorem ofBits_half : Ideal.ofBits .f32 0x3F000000#32 = ((1 / 2 : ℝ) : EReal) := by
  simp [Ideal.ofBits, Ideal.ieee, -EReal.coe_mul]; norm_num

/-- `2.0`, the factor of the cross term in the expanded square, denotes the real `2`. -/
theorem ofBits_two : Ideal.ofBits .f32 0x40000000#32 = ((2 : ℝ) : EReal) := by
  simp [Ideal.ofBits, Ideal.ieee, -EReal.coe_mul]; norm_num

/-- The pattern of `+∞`, against which finiteness is tested. -/
theorem ofBits_inf : Ideal.ofBits .f32 0x7F800000#32 = ⊤ := by
  simp [Ideal.ofBits, Ideal.ieee]

/-- The additive constant `-(d/2)·log(2π)` (both programs carry the same pattern) denotes a real number;
    its value is never needed, only that it is finite. -/
theorem ofBits_offset_real : ∃ r : ℝ, Ideal.ofBits .f32 0xC46B3F8E#32 = (r : EReal) := by
  have h : ∀ x : EReal, (∃ r : ℝ, x = (r : EReal)) ∨ x = ⊤ ∨ x = ⊥ := fun x => by
    induction x using EReal.rec with
    | bot => exact Or.inr (Or.inr rfl)
    | coe r => exact Or.inl ⟨r, rfl⟩
    | top => exact Or.inr (Or.inl rfl)
  rcases h (Ideal.ofBits .f32 0xC46B3F8E#32) with hr | ht | hb
  · exact hr
  · exfalso; revert ht; simp [Ideal.ofBits, Ideal.ieee, -EReal.coe_mul]
  · exfalso; revert hb; simp [Ideal.ofBits, Ideal.ieee, -EReal.coe_mul]

end Cert.Consts

end
-- ==== Proof.Agreement.lean ====
/-
  The two forms of the log-density agree wherever every sample and mean is a real number and every variance a
  positive real: then `1 / cov`, `log cov` and the three sums `q`, `r`, `s` over the feature axis are real, and

      ((C − ½·s) − ½·q) + r  =  C − ½·((q − 2·r) + s)

  is an identity of real numbers. (On the extended reals it fails at the infinities a zero variance brings in, which
  is why positivity is assumed.) The only other step is `mu·(mu/cov) = (mu·mu)/cov`, associativity of the product.
-/
import proofs.«108252_j10831907520642_2_alg».proof.Proof.LogDensity
import proofs.«108252_j10831907520642_2_alg».proof.Proof.Consts

noncomputable section

namespace Cert.LogDensity

open Idealize.ShloMosaic Idealize.ShloMosaic.ValueIdx

/-- The coercion from the reals to the extended reals commutes with finite sums. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Real samples and means, positive real variances: the expanded form is the folded form. -/
theorem expanded_eq_folded (X : SX.Idx → EReal) (mu cov : SP.Idx → EReal)
    (hX : ∀ i, ∃ r : ℝ, X i = (r : EReal)) (hmu : ∀ i, ∃ r : ℝ, mu i = (r : EReal))
    (hcov : ∀ i, ∃ r : ℝ, 0 < r ∧ cov i = (r : EReal)) (b : Fin 16) (t : Fin 1024) (k : Fin 500) :
    expandedForm X mu cov b t k = foldedForm X mu cov b t k := by
  choose x hx using hX
  choose μ hμ using hmu
  choose σ hσpos hσ using hcov
  obtain ⟨c0, hc0⟩ := Cert.Consts.ofBits_offset_real
  have hinv : ∀ f : Fin 1024, inv cov k f = ((1 / σ (ix2 k f) : ℝ) : EReal) := fun f => by
    unfold inv
    rw [hσ, Cert.Consts.ofBits_one, Ideal.div_coe (ne_of_gt (hσpos _)), ← EReal.coe_mul, one_mul]
  have hlog : ∀ f : Fin 1024, Ideal.log (cov (ix2 k f)) = ((Real.log (σ (ix2 k f)) : ℝ) : EReal) := fun f => by
    rw [hσ, Ideal.log_coe, if_neg (not_le.mpr (hσpos _))]
  have hassoc : ∑ f : Fin 1024, mu (ix2 k f) * (mu (ix2 k f) * inv cov k f)
      = ∑ f : Fin 1024, (mu (ix2 k f) * mu (ix2 k f)) * inv cov k f :=
    Finset.sum_congr rfl fun f _ => (mul_assoc _ _ _).symm
  unfold expandedForm foldedForm
  rw [hassoc]
  unfold logNorm quad cross
  simp only [hinv, hlog, hx, hμ, hc0, Cert.Consts.ofBits_half, Cert.Consts.ofBits_two, Cert.Consts.ofBits_zero,
    zero_add, ← EReal.coe_mul, coe_sum, ← EReal.coe_sub, ← EReal.coe_add]
  congr 1
  ring

end Cert.LogDensity

end
-- ==== Proof.PositiveFinite.lean ====
/-
  What the precondition says, element by element. It is the conjunction of four `all`s: `|X| < +∞`, `|mu| < +∞`,
  `|cov| < +∞` and `cov > 0`. An extended real whose absolute value is below `+∞` is a real number, so every sample
  and every mean is real and every variance is a positive real.
-/
import proofs.«108252_j10831907520642_2_alg».proof.Pre_finite_inputs
import proofs.«108252_j10831907520642_2_alg».proof.Proof.Consts
import Idealize.ShloMosaic.PureOps.Ideal
import Idealize.ShloMosaic.Lib.ValueIdx
import Idealize.ShloMosaic.Lib.ReduceAll

noncomputable section

namespace Cert.PositiveFinite

open Idealize.ShloMosaic Cert.Pre_finite_inputs

variable [Cert.Pre_finite_inputs.Facts]

/-- An extended real with `max x (−x) < +∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison `|x| < +∞` answering 1 says `x` is real. -/
theorem real_of_cmp (x : EReal)
    (h : Ideal.cmp .olt (max x (-x)) (Ideal.ofBits .f32 0x7F800000#32) = 1#1) : ∃ r : ℝ, x = (r : EReal) := by
  rw [Cert.Consts.ofBits_inf] at h
  refine real_of_abs_lt_top x ?_
  by_contra hn
  simp [Ideal.cmp, hn] at h

/-- The comparison `x > 0` answering 1 says `0 < x`. -/
theorem pos_of_cmp (x : EReal)
    (h : Ideal.cmp .ogt x (Ideal.ofBits .f32 0x00000000#32) = 1#1) : 0 < x := by
  rw [Cert.Consts.ofBits_zero] at h
  by_contra hn
  simp [Ideal.cmp, hn] at h

/-- The precondition, element by element. -/
theorem of_pre (X : S16x1024x1024.Idx → EReal) (mu cov : S500x1024.Idx → EReal)
    (h : Cert.Pre_finite_inputs.fn (F := Ideal) X mu cov = fun _ => 1#1) :
    (∀ i, ∃ r : ℝ, X i = (r : EReal)) ∧ (∀ i, ∃ r : ℝ, mu i = (r : EReal))
      ∧ (∀ i, ∃ r : ℝ, 0 < r ∧ cov i = (r : EReal)) := by
  haveI : Subsingleton S_.Idx := ⟨fun a b => funext fun d => d.elim0⟩
  have h0 := congrFun h ValueIdx.ix0
  dsimp only [Cert.Pre_finite_inputs.fn, Cert.Pre_finite_inputs.fn_part1] at h0
  obtain ⟨h123, hpos⟩ := IntOp.andi_eq_one.1 h0
  obtain ⟨h12, hcovf⟩ := IntOp.andi_eq_one.1 h123
  obtain ⟨hXf, hmuf⟩ := IntOp.andi_eq_one.1 h12
  have eX : ∀ i, ∃ r : ℝ, X i = (r : EReal) := fun i =>
    real_of_cmp (X i) (Host.reduce_andi_all _ _ _ _ _ hXf i)
  have emu : ∀ i, ∃ r : ℝ, mu i = (r : EReal) := fun i =>
    real_of_cmp (mu i) (Host.reduce_andi_all _ _ _ _ _ hmuf i)
  have ecov : ∀ i, ∃ r : ℝ, cov i = (r : EReal) := fun i =>
    real_of_cmp (cov i) (Host.reduce_andi_all _ _ _ _ _ hcovf i)
  refine ⟨eX, emu, fun i => ?_⟩
  obtain ⟨r, hr⟩ := ecov i
  have hp : 0 < cov i := pos_of_cmp (cov i) (Host.reduce_andi_all _ _ _ _ _ hpos i)
  rw [hr] at hp
  exact ⟨r, by exact_mod_cast hp, hr⟩

end Cert.PositiveFinite

end
-- ==== Proof.ExpandedRead.lean ====
/-
  The program that expands the square in place, read index by index: its result at `(b, t, k)` is
  `C_k − ½ · ((q − 2r) + s)` with `q`, `r`, `s` the three sums over the feature axis and `C_k` the normaliser
  (`LogDensity.expandedForm`). Each stage is read at an index by the generated per-operation lemmas; what is
  written here are the index identifications (a sum's `f`-th term sits at `(k, f)`, a contraction's at
  `(b, t, f)` and `(k, f)`, a broadcast component at `k`).
-/
import proofs.«108252_j10831907520642_2_alg».proof.Proof.Gen.ReferenceIdeal.Read
import proofs.«108252_j10831907520642_2_alg».proof.Proof.LogDensity

noncomputable section

namespace Cert.ReferenceIdeal.Expanded

open Cert.ReferenceIdeal Cert.ReferenceIdeal.Read Cert.LogDensity
open Idealize.ShloMosaic Idealize.ShloMosaic.ValueIdx

variable (X : SX.Idx → EReal) (mu cov : SP.Idx → EReal)

/-- The `f`-th term of a sum over the feature axis for component `k` sits at `(k, f)`. -/
theorem row_index (k : Fin 500) (f : Fin 1024) : idx_main_v3 (ix1 k) f = ix2 k f :=
  funext fun a => Fin.ext (by match a with | ⟨0, _⟩ => rfl | ⟨1, _⟩ => rfl)

/-- The reciprocal variance at `(k, f)`. -/
theorem inv_read (k : Fin 500) (f : Fin 1024) : val_main_v1 (F := Ideal) cov (ix2 k f) = inv cov k f := by
  rw [val_main_v1_apply, val_main_v0_apply, val_main_cst_apply]
  rfl

/-- The normaliser of component `k`. -/
theorem logNorm_read (k : Fin 500) : val_main_v7 (F := Ideal) cov (ix1 k) = logNorm cov k := by
  rw [val_main_v7_apply, val_main_v6_apply, val_main_cst_2_apply, val_main_v5_apply, val_main_v4_apply,
    val_main_cst_1_apply, val_main_v3_apply, val_main_cst_0_apply]
  simp only [row_index, val_main_v2_apply]
  rfl

/-- `q`: the squares against the reciprocal variances. -/
theorem quad_read (b : Fin 16) (t : Fin 1024) (k : Fin 500) :
    val_main_v9 (F := Ideal) X cov (ix3 b t k) = quad X cov b t k := by
  have el : ∀ f : Fin 1024, lidx_main_v9 (ix3 b t k) f = ix3 b t f := fun f =>
    funext fun a => Fin.ext (by match a with | ⟨0, _⟩ => rfl | ⟨1, _⟩ => rfl | ⟨2, _⟩ => rfl)
  have er : ∀ f : Fin 1024, ridx_main_v9 (ix3 b t k) f = ix2 k f := fun f =>
    funext fun a => Fin.ext (by match a with | ⟨0, _⟩ => rfl | ⟨1, _⟩ => rfl)
  rw [val_main_v9_apply]
  simp only [el, er, val_main_v8_apply, inv_read]
  rfl

/-- `r`: the samples against the scaled means. -/
theorem cross_read (b : Fin 16) (t : Fin 1024) (k : Fin 500) :
    val_main_v11 (F := Ideal) X mu cov (ix3 b t k) = cross X mu cov b t k := by
  have el : ∀ f : Fin 1024, lidx_main_v11 (ix3 b t k) f = ix3 b t f := fun f =>
    funext fun a => Fin.ext (by match a with | ⟨0, _⟩ => rfl | ⟨1, _⟩ => rfl | ⟨2, _⟩ => rfl)
  have er : ∀ f : Fin 1024, ridx_main_v11 (ix3 b t k) f = ix2 k f := fun f =>
    funext fun a => Fin.ext (by match a with | ⟨0, _⟩ => rfl | ⟨1, _⟩ => rfl)
  rw [val_main_v11_apply]
  simp only [el, er, val_main_v10_apply, inv_read]
  rfl

/-- `s`: the squared means against the reciprocal variances, from the float zero. -/
theorem meanSq_read (k : Fin 500) :
    val_main_v14 (F := Ideal) mu cov (ix1 k)
      = Ideal.ofBits .f32 0x00000000#32 + ∑ f : Fin 1024, (mu (ix2 k f) * mu (ix2 k f)) * inv cov k f := by
  have e : ∀ f : Fin 1024, idx_main_v14 (ix1 k) f = ix2 k f := fun f =>
    funext fun a => Fin.ext (by match a with | ⟨0, _⟩ => rfl | ⟨1, _⟩ => rfl)
  rw [val_main_v14_apply, val_main_cst_3_apply]
  simp only [e, val_main_v13_apply, val_main_v12_apply, inv_read]
  rfl

/-- The result at `(b, t, k)` is the expanded form. -/
theorem result_read (b : Fin 16) (t : Fin 1024) (k : Fin 500) :
    val_main_v25 (F := Ideal) X mu cov (ix3 b t k) = expandedForm X mu cov b t k := by
  have e1 : idx_main_v23 (idx_main_v24 (ix3 b t k)) = ix1 k :=
    funext fun a => Fin.ext (by match a with | ⟨0, _⟩ => rfl)
  have e2 : idx_main_v18 (idx_main_v19 (ix3 b t k)) = ix1 k :=
    funext fun a => Fin.ext (by match a with | ⟨0, _⟩ => rfl)
  rw [val_main_v25_apply, val_main_v24_apply, val_main_v23_apply, e1, logNorm_read,
    val_main_v22_apply, val_main_v21_apply, val_main_cst_5_apply, val_main_v20_apply, val_main_v19_apply,
    val_main_v18_apply, e2, meanSq_read, val_main_v17_apply, quad_read, val_main_v16_apply, val_main_v15_apply,
    val_main_cst_4_apply, cross_read]
  rfl

end Cert.ReferenceIdeal.Expanded

end
-- ==== Proof.EntryTerms.lean ====
/-
  The pure terms the host computes before the kernel region, and each read at an index:
  the reciprocal variances `1 / cov`; a `[500, 1024]` table transposed to `[1024, 500]` and padded with twelve zero
  columns (a column `k < 500` of the padded table is the table's own, so its entry `(f, k)` is the table's `(k, f)`);
  the per-component term `C_k − ½ · Σ_f mu·(mu/cov)`, laid out as one row and padded the same way; and the samples
  flattened from `[16, 1024, 1024]` to `[16384, 1024]`, whose row `1024·b + t` is sample `(b, t)`.
-/
import proofs.«108252_j10831907520642_2_alg».proof.Proof.Gen.KernelIdeal
import proofs.«108252_j10831907520642_2_alg».proof.Proof.LogDensity
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.SL.Sem

namespace Cert.KernelIdeal.Entry

open Cert.KernelIdeal Cert.LogDensity
open Idealize.ShloMosaic.ValueIdx

/-! ## The four arrays as terms of the arguments -/

/-- The reciprocal variances `1 / cov`, over `[500, 1024]`. -/
def recip (cov : S500x1024.Idx → EReal) : S500x1024.Idx → EReal :=
  Host.divf (F := Ideal) (broadcastInDim S500x1024 ![] Facts₀.bcast_S_S500x1024 (constant (F := Ideal) S_ .f32 0x3F800000#32)) cov

/-- A `[500, 1024]` table transposed and padded with twelve zero columns. -/
def paddedT (y : S500x1024.Idx → EReal) : S1024x512.Idx → EReal :=
  pad S1024x512 ![0, 0] ![0, 12] ![0, 0]
    (truncf (F := Ideal) .bf16 (transpose S1024x500 [1, 0] y Facts₀.transposes_S500x1024_S1024x500_1_0) Facts₀.bitsLt_bf16_f32)
    (sitofp (F := Ideal) .bf16 (constantI S_ 32 0#32)) Facts₀.pads_S1024x500_S1024x512_000_0120 Facts₀.h_S_

/-- The per-component term `C_k − ½ · Σ_f mu·(mu/cov)`, over `[500]`. -/
def perComponent (mu cov : S500x1024.Idx → EReal) : S500.Idx → EReal :=
  subf (F := Ideal)
    (subf (F := Ideal) (broadcastInDim S500 ![] Facts₀.bcast_S_S500 (constant (F := Ideal) S_ .f32 0xC46B3F8E#32))
      (mulf (F := Ideal) (φ := .f32) (broadcastInDim S500 ![] Facts₀.bcast_S_S500 (constant (F := Ideal) S_ .f32 0x3F000000#32))
        (Host.reduceAdd (F := Ideal) (Host.log (F := Ideal) cov) (constant (F := Ideal) S_ .f32 0x00000000#32) Facts₀.reducesTo_S500x1024_S500_d1 Facts₀.h_S_)))
    (mulf (F := Ideal) (φ := .f32) (broadcastInDim S500 ![] Facts₀.bcast_S_S500 (constant (F := Ideal) S_ .f32 0x3F000000#32))
      (Host.reduceAdd (F := Ideal) (mulf (F := Ideal) (φ := .f32) mu (mulf (F := Ideal) (φ := .f32) mu (recip cov))) (constant (F := Ideal) S_ .f32 0x00000000#32) Facts₀.reducesTo_S500x1024_S500_d1 Facts₀.h_S_))

/-! ## Each read at an index -/

/-- Row `1024·b + t` of the flattened samples is sample `(b, t)`. -/
theorem samples_apply (X : S16x1024x1024.Idx → EReal) (b : Fin 16) (t f : Fin 1024) (r : Fin 16384)
    (hr : r.val = 1024 * b.val + t.val) :
    shapeCast S16384x1024 X Facts₀.shapeCasts_S16x1024x1024_S16384x1024 (ix2 r f) = X (ix3 b t f) :=
  shapeCast_apply X _ (ix2 r f) (ix3 b t f) (by
    rw [Shape.rowMajor_val_two, Shape.rowMajor_val_three]
    show (b.val * 1024 + t.val) * 1024 + f.val = r.val * 1024 + f.val
    omega)

/-- A column `k < 500` of a transposed, padded table: entry `(f, k)` is the table's `(k, f)`. -/
theorem paddedT_apply (y : S500x1024.Idx → EReal) (f : Fin 1024) (q : Fin 512) (k : Fin 500) (hk : q.val = k.val) :
    paddedT y (ix2 f q) = y (ix2 k f) := by
  unfold paddedT
  rw [pad_apply_of_inside _ _ _ _ _ _ _ (ix2 f q) (ix2 f k) (fun a => by
    match a with
    | ⟨0, _⟩ => show f.val = 0 + f.val * (0 + 1); omega
    | ⟨1, _⟩ => show q.val = 0 + k.val * (0 + 1); omega)]
  rw [truncf_apply, transpose_ix2_apply]

/-- The reciprocal variance at `(k, f)`. -/
theorem recip_apply (cov : S500x1024.Idx → EReal) (k : Fin 500) (f : Fin 1024) :
    recip cov (ix2 k f) = inv cov k f := rfl

/-- A host sum over the feature axis from the float zero, for component `k`. -/
theorem rowSum_apply (y : S500x1024.Idx → EReal) (k : Fin 500) :
    Host.reduceAdd (F := Ideal) (φ := .f32) y (constant (F := Ideal) S_ .f32 0x00000000#32)
        Facts₀.reducesTo_S500x1024_S500_d1 Facts₀.h_S_ (ix1 k)
      = Ideal.ofBits .f32 0x00000000#32 + ∑ f : Fin 1024, y (ix2 k f) := by
  simp only [Host.reduceAdd, Ideal.hostReduceAdd_def]
  rw [Ideal.hostReduceAdd_single Facts₀.reducesTo_S500x1024_S500_d1 (by decide)]
  show Ideal.ofBits .f32 0x00000000#32 + _ = _
  refine congrArg (_ + ·) (Finset.sum_congr rfl fun f _ => ?_)
  exact congrArg y (funext fun a => Fin.ext (by match a with | ⟨0, _⟩ => rfl | ⟨1, _⟩ => rfl))

/-- The per-component term at `k`. -/
theorem perComponent_apply (mu cov : S500x1024.Idx → EReal) (k : Fin 500) :
    perComponent mu cov (ix1 k)
      = logNorm cov k - Ideal.ofBits .f32 0x3F000000#32
          * (Ideal.ofBits .f32 0x00000000#32 + ∑ f : Fin 1024, mu (ix2 k f) * (mu (ix2 k f) * inv cov k f)) := by
  unfold perComponent logNorm
  rw [subf_apply, subf_apply, mulf_apply, mulf_apply, rowSum_apply, rowSum_apply]
  rfl

/-- A vector laid out as one row and padded: entry `(0, k)` for `k < 500` is the vector's `k`. -/
theorem paddedRow_apply (g : S500.Idx → EReal) (q : Fin 512) (k : Fin 500) (hk : q.val = k.val) :
    pad S1x512 ![0, 0] ![0, 12] ![0, 0] (shapeCast S1x500 g Facts₀.shapeCasts_S500_S1x500)
        (sitofp (F := Ideal) .f32 (constantI S_ 32 0#32)) Facts₀.pads_S1x500_S1x512_000_0120 Facts₀.h_S_ (ix2 (0 : Fin 1) q)
      = g (ix1 k) := by
  rw [pad_apply_of_inside _ _ _ _ _ _ _ (ix2 (0 : Fin 1) q) (ix2 (0 : Fin 1) k) (fun a => by
    match a with
    | ⟨0, _⟩ => show (0 : ℕ) = 0 + 0 * (0 + 1); omega
    | ⟨1, _⟩ => show q.val = 0 + k.val * (0 + 1); omega)]
  exact shapeCast_a_1a_apply g _ 0 k

end Cert.KernelIdeal.Entry

end
-- ==== Proof.RegionEntry.lean ====
/-
  What the one kernel region finds in the four arrays it stages, as pure terms of the argument arrays:
  the samples flattened to `[16384, 1024]`; the reciprocal variances and the scaled means `mu / cov`, each transposed
  to `[1024, 500]` and padded with zero columns to `[1024, 512]`; and the per-component term
  `C_k − ½ · Σ_f mu·(mu/cov)` as one row `[1, 500]` padded to `[1, 512]`.
  Then each of them read at an index: row `1024·b + t` of the flattened samples is sample `(b, t)`; a column
  `k < 500` of a padded table is the table's own column `k`, so entry `(f, k)` is the parameter at `(k, f)`.
-/
import proofs.«108252_j10831907520642_2_alg».proof.Proof.Gen.KernelIdeal.Frame
import proofs.«108252_j10831907520642_2_alg».proof.Proof.LogDensity
import proofs.«108252_j10831907520642_2_alg».proof.Proof.EntryTerms
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem

namespace Cert.KernelIdeal.Entry

open Cert.KernelIdeal Cert.KernelIdeal.Gen Cert.LogDensity
open Idealize.ShloMosaic.ValueIdx

variable (m : (ℓ : Loc nD τ sig) → Buf (Elt Ideal) ℓ)

/-! ## The four arrays as the region finds them -/

/-- The samples as the region finds them: flattened. -/
theorem entry_samples (c : Dev nD) :
    (V m c main_v0 : S16384x1024.Idx → EReal)
      = shapeCast S16384x1024 (m ((c : Thread nD τ).loc main_arg0) : S16x1024x1024.Idx → EReal) Facts₀.shapeCasts_S16x1024x1024_S16384x1024 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

set_option maxHeartbeats 1000000 in
/-- The reciprocal variances as the region finds them: transposed and padded. -/
theorem entry_recip (c : Dev nD) :
    (V m c main_v20 : S1024x512.Idx → EReal)
      = paddedT (recip (m ((c : Thread nD τ).loc main_arg2) : S500x1024.Idx → EReal)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

set_option maxHeartbeats 1000000 in
/-- The scaled means as the region finds them: transposed and padded. -/
theorem entry_scaledMeans (c : Dev nD) :
    (V m c main_v21 : S1024x512.Idx → EReal)
      = paddedT (mulf (F := Ideal) (φ := .f32) (m ((c : Thread nD τ).loc main_arg1) : S500x1024.Idx → EReal)
          (recip (m ((c : Thread nD τ).loc main_arg2) : S500x1024.Idx → EReal))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

set_option maxHeartbeats 2000000 in
/-- The per-component row as the region finds it: one row, padded. -/
theorem entry_perComponent (c : Dev nD) :
    (V m c main_v22 : S1x512.Idx → EReal)
      = pad S1x512 ![0, 0] ![0, 12] ![0, 0]
          (shapeCast S1x500 (perComponent (m ((c : Thread nD τ).loc main_arg1) : S500x1024.Idx → EReal)
            (m ((c : Thread nD τ).loc main_arg2) : S500x1024.Idx → EReal)) Facts₀.shapeCasts_S500_S1x500)
          (sitofp (F := Ideal) .f32 (constantI S_ 32 0#32)) Facts₀.pads_S1x500_S1x512_000_0120 Facts₀.h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

end Cert.KernelIdeal.Entry

end
-- ==== Proof.BodyAtIndex.lean ====
/-
  One grid point's arithmetic, read at an entry `(p, q)` of its `[1024, 512]` output block, on the extended reals:
  with `x` the point's `[1024, 1024]` block of samples, `w` and `u` the two `[1024, 512]` tables and `g` the
  `[1, 512]` row,

      out (p, q) = (g (0, q) − ½ · Σ_f (x (p, f) · x (p, f)) · w (f, q)) + Σ_f x (p, f) · u (f, q).

  The two matrix products accumulate into zero, so each is the plain sum over the contracted axis; the changes of
  float format are the identity; the row `g` is broadcast down the block's rows.
-/
import proofs.«108252_j10831907520642_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.SL.Sem

namespace Cert.KernelIdeal.Body

open Cert.KernelIdeal Cert.KernelIdeal.Gen Cert.KernelIdeal.Facts₀ Cert.KernelIdeal.Facts
open Idealize.ShloMosaic.ValueIdx

/-- The left operand's row coordinate is the output's row. -/
theorem lhs_row (i : S1024x512.Idx) (κ : (dot_S1024x1024_S1024x512_S1024x512_1_0_0_1_n_n).contr.Idx) :
    ((dot_S1024x1024_S1024x512_S1024x512_1_0_0_1_n_n).lhsIdx i κ 0).val = (i 0).val := by
  unfold DotDims.lhsIdx
  rw [dif_neg (show ¬(0 : Fin S1024x1024.rank) ∈ (dot_S1024x1024_S1024x512_S1024x512_1_0_0_1_n_n).lhsBatch by decide), dif_pos (show (0 : Fin S1024x1024.rank) ∈ (dot_S1024x1024_S1024x512_S1024x512_1_0_0_1_n_n).lhsNonContracting by decide)]
  rfl

/-- The left operand's column coordinate is the contraction index. -/
theorem lhs_col (i : S1024x512.Idx) (κ : (dot_S1024x1024_S1024x512_S1024x512_1_0_0_1_n_n).contr.Idx) :
    ((dot_S1024x1024_S1024x512_S1024x512_1_0_0_1_n_n).lhsIdx i κ 1).val = (κ ⟨0, by decide⟩).val :=
  (dot_S1024x1024_S1024x512_S1024x512_1_0_0_1_n_n).lhsIdx_val_of_single rfl i κ

/-- The right operand's row coordinate is the contraction index. -/
theorem rhs_row (i : S1024x512.Idx) (κ : (dot_S1024x1024_S1024x512_S1024x512_1_0_0_1_n_n).contr.Idx) :
    ((dot_S1024x1024_S1024x512_S1024x512_1_0_0_1_n_n).rhsIdx i κ 0).val = (κ ⟨0, by decide⟩).val :=
  (dot_S1024x1024_S1024x512_S1024x512_1_0_0_1_n_n).rhsIdx_val_of_single rfl i κ

/-- The right operand's column coordinate is the output's column. -/
theorem rhs_col (i : S1024x512.Idx) (κ : (dot_S1024x1024_S1024x512_S1024x512_1_0_0_1_n_n).contr.Idx) :
    ((dot_S1024x1024_S1024x512_S1024x512_1_0_0_1_n_n).rhsIdx i κ 1).val = (i 1).val := by
  unfold DotDims.rhsIdx
  rw [dif_neg (show ¬(1 : Fin S1024x512.rank) ∈ (dot_S1024x1024_S1024x512_S1024x512_1_0_0_1_n_n).rhsBatch by decide), dif_pos (show (1 : Fin S1024x512.rank) ∈ (dot_S1024x1024_S1024x512_S1024x512_1_0_0_1_n_n).rhsNonContracting by decide)]
  rfl

/-- A `[1024, 1024] × [1024, 512]` product into the zero block, at `(p, q)`: the sum over the shared axis. -/
theorem product_apply (a : FVec Ideal S1024x1024 .bf16) (w : FVec Ideal S1024x512 .bf16) (p : Fin 1024) (q : Fin 512) :
    matmul (F := Ideal) dot_S1024x1024_S1024x512_S1024x512_1_0_0_1_n_n none a w (constant (F := Ideal) S1024x512 .f32 0x00000000#32) (ix2 p q)
      = ∑ f : Fin 1024, a (ix2 p f) * w (ix2 f q) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun f _ => ?_
  have hk := ValueIdx.contrEquiv1_symm_val dot_S1024x1024_S1024x512_S1024x512_1_0_0_1_n_n 1024 rfl rfl f
  have el : (dot_S1024x1024_S1024x512_S1024x512_1_0_0_1_n_n).lhsIdx (ix2 p q) ((ValueIdx.contrEquiv1 dot_S1024x1024_S1024x512_S1024x512_1_0_0_1_n_n 1024 rfl rfl).symm f) = ix2 p f := funext fun ax => Fin.ext (by
    match ax with
    | ⟨0, _⟩ => exact lhs_row _ _
    | ⟨1, _⟩ => exact (lhs_col _ _).trans hk)
  have er : (dot_S1024x1024_S1024x512_S1024x512_1_0_0_1_n_n).rhsIdx (ix2 p q) ((ValueIdx.contrEquiv1 dot_S1024x1024_S1024x512_S1024x512_1_0_0_1_n_n 1024 rfl rfl).symm f) = ix2 f q := funext fun ax => Fin.ext (by
    match ax with
    | ⟨0, _⟩ => exact (rhs_row _ _).trans hk
    | ⟨1, _⟩ => exact rhs_col _ _)
  rw [el, er]

/-- The point's stored value at `(p, q)`. -/
theorem stored_apply (x : Vec Ideal S1024x1024 .f32) (w u : Vec Ideal S1024x512 .bf16) (g : Vec Ideal S1x512 .f32)
    (p : Fin 1024) (q : Fin 512) :
    k0_pay1 x w u g (ix2 p q)
      = (g (ix2 (0 : Fin 1) q) - Ideal.ofBits .f32 0x3F000000#32 * ∑ f : Fin 1024, (x (ix2 p f) * x (ix2 p f)) * w (ix2 f q))
        + ∑ f : Fin 1024, x (ix2 p f) * u (ix2 f q) := by
  unfold k0_pay1
  simp only [addf_apply, subf_apply, mulf_apply, broadcast_apply, product_apply, shapeCast_self, truncf_apply,
    broadcastTo_1b_ab_apply]
  rfl

end Cert.KernelIdeal.Body

end
-- ==== Proof.BlocksToArray.lean ====
/-
  From blocks to the array. Grid point `t` (of 16) stages rows `1024·t … 1024·t + 1023` of the flattened samples,
  the two `[1024, 512]` tables and the `[1, 512]` row whole, and writes back rows `1024·t … 1024·t + 1023` of the
  `[16384, 512]` output. So what point `t` writes back is block `t` of ONE function of the four arrays the region
  finds,

      whole (r, q) = (g (0, q) − ½ · Σ_f (a (r, f) · a (r, f)) · w (f, q)) + Σ_f a (r, f) · u (f, q),

  and, the sixteen row blocks covering the output, the output array ends holding that function.
-/
import proofs.«108252_j10831907520642_2_alg».proof.Proof.Gen.KernelIdeal.Frame
import proofs.«108252_j10831907520642_2_alg».proof.Proof.BodyAtIndex
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen
open Idealize.ShloMosaic.ValueIdx

variable (m : (ℓ : Loc nD τ sig) → Buf (Elt Ideal) ℓ)

theorem hz : (![0, 0] : Fin 2 → Nat) = fun _ => 0 := funext fun a => by fin_cases a <;> rfl

/-- The output array as one function of the four arrays the region finds. -/
def whole (a : S16384x1024.Idx → EReal) (w u : S1024x512.Idx → EReal) (g : S1x512.Idx → EReal) : S16384x512.Idx → EReal :=
  fun i => (g (ix2 (0 : Fin 1) (i 1))
      - Ideal.ofBits .f32 0x3F000000#32 * ∑ f : Fin 1024, (a (ix2 (i 0) f) * a (ix2 (i 0) f)) * w (ix2 f (i 1)))
    + ∑ f : Fin 1024, a (ix2 (i 0) f) * u (ix2 f (i 1))

/-- The printed index maps over the grid: the samples' window and the output's move down the rows with the point,
    the other three windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The samples' block at point `t` is rows `1024·t …` of the flattened samples. -/
theorem samples_block (c : Dev nD) (t : Fin cfg0.N) (y : S1024x1024.Idx) (k : S16384x1024.Idx)
    (hk0 : (k 0).val = 1024 * t.val + (y 0).val) (hk1 : (k 1).val = (y 1).val) :
    (iblk m c 0 t : Vec Ideal S1024x1024 .f32) y = (V m c main_v0 : S16384x1024.Idx → EReal) k := by
  obtain ⟨e0, e1, -⟩ := idx_facts t
  unfold iblk
  rw [View.read_apply]
  show (V m c main_v0 : S16384x1024.Idx → EReal) _ = V m c main_v0 k
  refine congrArg (V m c main_v0 : S16384x1024.Idx → EReal) (funext fun a => Fin.ext ?_)
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The reciprocal-variance table's block at any point is the whole table. -/
theorem table1_block (c : Dev nD) (t : Fin cfg0.N) (y : S1024x512.Idx) :
    (iblk m c 1 t : Vec Ideal S1024x512 .bf16) y = (V m c main_v20 : S1024x512.Idx → EReal) y := by
  obtain ⟨-, -, e0, e1, -⟩ := idx_facts t
  unfold iblk
  rw [View.read_apply]
  show (V m c main_v20 : S1024x512.Idx → EReal) _ = V m c main_v20 y
  refine congrArg (V m c main_v20 : S1024x512.Idx → EReal) (funext fun a => Fin.ext ?_)
  match a with
  | ⟨0, _⟩ => show win0_1.index t (0 : Fin 2) * 1024 + 1 * (y 0).val = (y 0).val; rw [e0]; omega
  | ⟨1, _⟩ => show win0_1.index t (1 : Fin 2) * 512 + 1 * (y 1).val = (y 1).val; rw [e1]; omega

/-- The scaled-mean table's block at any point is the whole table. -/
theorem table2_block (c : Dev nD) (t : Fin cfg0.N) (y : S1024x512.Idx) :
    (iblk m c 2 t : Vec Ideal S1024x512 .bf16) y = (V m c main_v21 : S1024x512.Idx → EReal) y := by
  obtain ⟨-, -, -, -, e0, e1, -⟩ := idx_facts t
  unfold iblk
  rw [View.read_apply]
  show (V m c main_v21 : S1024x512.Idx → EReal) _ = V m c main_v21 y
  refine congrArg (V m c main_v21 : S1024x512.Idx → EReal) (funext fun a => Fin.ext ?_)
  match a with
  | ⟨0, _⟩ => show win0_2.index t (0 : Fin 2) * 1024 + 1 * (y 0).val = (y 0).val; rw [e0]; omega
  | ⟨1, _⟩ => show win0_2.index t (1 : Fin 2) * 512 + 1 * (y 1).val = (y 1).val; rw [e1]; omega

/-- The per-component row's block at any point is the whole row. -/
theorem row_block (c : Dev nD) (t : Fin cfg0.N) (y : S1x512.Idx) :
    (iblk m c 3 t : Vec Ideal S1x512 .f32) y = (V m c main_v22 : S1x512.Idx → EReal) y := by
  obtain ⟨-, -, -, -, -, -, e0, e1, -⟩ := idx_facts t
  unfold iblk
  rw [View.read_apply]
  show (V m c main_v22 : S1x512.Idx → EReal) _ = V m c main_v22 y
  refine congrArg (V m c main_v22 : S1x512.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

/-- What point `t` writes back is block `t` of `whole` of the four arrays as the region finds them. -/
theorem flushed_eq (c : Dev nD) (t : Fin cfg0.N) :
    (dats m 0 c).flushed 4 t = ((cfg0.win 4).blk t).view.read (Elt Ideal)
      (whole (V m c main_v0) (V m c main_v20) (V m c main_v21) (V m c main_v22)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x512) hz, View.ld_unit_zero (S := S1x512) hz]
  obtain ⟨-, -, -, -, -, -, -, -, e0, e1⟩ := idx_facts t
  funext j
  obtain ⟨p, q, rfl⟩ : ∃ (p : Fin 1024) (q : Fin 512), j = ix2 p q := ⟨j 0, j 1, eq_ix2 j⟩
  show k0_pay1 (iblk m c 0 t) (iblk m c 1 t) (iblk m c 2 t) (iblk m c 3 t) (ix2 p q)
    = whole (V m c main_v0) (V m c main_v20) (V m c main_v21) (V m c main_v22) (((cfg0.win 4).blk t).view.emb (ix2 p q))
  refine (Body.stored_apply (iblk m c 0 t) (iblk m c 1 t) (iblk m c 2 t) (iblk m c 3 t) p q).trans ?_
  have h0 : ((((cfg0.win 4).blk t).view.emb (ix2 p q)) 0).val = 1024 * t.val + p.val := by
    show win0_4.index t (0 : Fin 2) * 1024 + 1 * p.val = _
    rw [e0]; omega
  have h1 : (((cfg0.win 4).blk t).view.emb (ix2 p q)) 1 = q := Fin.ext (by
    show win0_4.index t (1 : Fin 2) * 512 + 1 * q.val = q.val
    rw [e1]; omega)
  have r0 : ∀ f : Fin 1024, (iblk m c 0 t : Vec Ideal S1024x1024 .f32) (ix2 p f)
      = (V m c main_v0 : S16384x1024.Idx → EReal) (ix2 ((((cfg0.win 4).blk t).view.emb (ix2 p q)) 0) f) := fun f =>
    samples_block m c t (ix2 p f) _ h0 rfl
  unfold whole
  rw [h1]
  simp only [r0, table1_block m c t, table2_block m c t, row_block m c t]

/-- An index of the output array is in point `t`'s block iff each coordinate is in the block's range on its axis. -/
theorem mem_blk (t : Fin cfg0.N) (i : S16384x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v23).slice (win0_4.rect t)).set ↔ _
  rw [View.set_slice_whole, Rect.mem_set_unit]
  exact Iff.rfl

/-- Every index of the output array is in the block of the point its row falls to: row `r` is point `r / 1024`'s. -/
theorem cover (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 512 ≤ (i 1).val ∧ (i 1).val < win0_4.index t (1 : Fin 2) * 512 + 512
    rw [e1]; omega

/-- The output array after the run is `whole` of the four arrays the region found. -/
theorem final (c : Dev nD) :
    (dats m 0 c).arrAt 4 cfg0.N = whole (V m c main_v0) (V m c main_v20) (V m c main_v21) (V m c main_v22) :=
  (dats m 0 c).arrAt_eq_of_cover 4 _ (fun t _ => flushed_eq m c t) cover

end Cert.KernelIdeal.Blocks

end
-- ==== Proof.KernelRun.lean ====
/-
  The kernel program's run, read: its result array holds the folded form of the log-density, index by index.
  After the region the host keeps the first 500 of the 512 columns of the `[16384, 512]` output and unflattens
  the rows, so the result at `(b, t, k)` is the output at row `1024·b + t`, column `k`. There the output is
  `(g (0, k) − ½ · Σ_f (a(r, f)·a(r, f))·w(f, k)) + Σ_f a(r, f)·u(f, k)` of the four arrays the region found, and
  those are: `a (r, f)` the sample `X (b, t, f)`, `w (f, k) = 1 / cov (k, f)`, `u (f, k) = mu (k, f) / cov (k, f)`
  (columns below 500 of the padded tables are the tables' own) and `g (0, k) = C_k − ½ · Σ_f mu·(mu/cov)`.
-/
import proofs.«108252_j10831907520642_2_alg».proof.Proof.Gen.KernelIdeal.Frame
import proofs.«108252_j10831907520642_2_alg».proof.Proof.LogDensity
import proofs.«108252_j10831907520642_2_alg».proof.Proof.EntryTerms
import proofs.«108252_j10831907520642_2_alg».proof.Proof.RegionEntry
import proofs.«108252_j10831907520642_2_alg».proof.Proof.BlocksToArray
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Folded

open Cert.KernelIdeal Cert.KernelIdeal.Gen Cert.LogDensity
open Idealize.ShloMosaic.ValueIdx

variable (m : (ℓ : Loc nD τ sig) → Buf (Elt Ideal) ℓ) (ρ : Dev nD → PrngReg)

/-- The result after the host's last two operations: the region's output, its first 500 columns kept, unflattened. -/
theorem tail_value (c : Dev nD) :
    (Pipeline.afterTail₀ cfgs (dats m) 0 (V0 m) [hostOps1] c main_v25 : S16x1024x500.Idx → EReal)
      = shapeCast S16x1024x500
          (extractStridedSlice S16384x500 ![0, 0]
            (Blocks.whole (V m c main_v0) (V m c main_v20) (V m c main_v21) (V m c main_v22))
            Facts₀.slices_S16384x512_S16384x500_0_0)
          Facts₀.shapeCasts_S16384x500_S16x1024x500 := by
  unfold Pipeline.afterTail₀
  show StableHlo.after hostOps1 _ (Proc.devRef .tc main_v25) = _
  after_results
  have e : (Pipeline.withArrays (cfgs 0).spec c (V0 m c) (fun w => (dats m 0 c).arrAt w (cfgs 0).N)
        (Proc.devRef .tc main_v23) : S16384x512.Idx → EReal)
      = Blocks.whole (V m c main_v0) (V m c main_v20) (V m c main_v21) (V m c main_v22) :=
    (Pipeline.withArrays_arr spec0 launch0.win.arr_inj c _ _ 4).trans (Blocks.final m c)
  rw [e]
  rfl

/-- The region's output function at row `r`, column `q`. -/
theorem whole_apply (a : S16384x1024.Idx → EReal) (w u : S1024x512.Idx → EReal) (g : S1x512.Idx → EReal)
    (r : Fin 16384) (q : Fin 512) :
    Blocks.whole a w u g (ix2 r q)
      = (g (ix2 (0 : Fin 1) q) - Ideal.ofBits .f32 0x3F000000#32 * ∑ f : Fin 1024, (a (ix2 r f) * a (ix2 r f)) * w (ix2 f q))
        + ∑ f : Fin 1024, a (ix2 r f) * u (ix2 f q) := rfl

/-- The result at `(b, t, k)` is the folded form of the argument arrays. -/
theorem result_apply (c : Dev nD) (b : Fin 16) (t : Fin 1024) (k : Fin 500) :
    (Pipeline.afterTail₀ cfgs (dats m) 0 (V0 m) [hostOps1] c main_v25 : S16x1024x500.Idx → EReal) (ix3 b t k)
      = foldedForm (m ((c : Thread nD τ).loc main_arg0) : S16x1024x1024.Idx → EReal)
          (m ((c : Thread nD τ).loc main_arg1) : S500x1024.Idx → EReal)
          (m ((c : Thread nD τ).loc main_arg2) : S500x1024.Idx → EReal) b t k := by
  have hb : b.val < 16 := b.isLt
  have ht : t.val < 1024 := t.isLt
  have hk : k.val < 500 := k.isLt
  rw [tail_value]
  -- unflattening: row `1024·b + t`
  rw [shapeCast_apply _ Facts₀.shapeCasts_S16384x500_S16x1024x500 (ix3 b t k)
    (ix2 (⟨1024 * b.val + t.val, by omega⟩ : Fin 16384) k) (by
      rw [Shape.rowMajor_val_two, Shape.rowMajor_val_three]
      show (1024 * b.val + t.val) * 500 + k.val = (b.val * 1024 + t.val) * 500 + k.val
      omega)]
  -- the first 500 columns: column `k` of the output
  rw [slice2_axis1_apply 0 _ Facts₀.slices_S16384x512_S16384x500_0_0 (⟨1024 * b.val + t.val, by omega⟩ : Fin 16384) k
    (⟨k.val, by omega⟩ : Fin 512) (by show k.val = 0 + k.val; omega)]
  rw [whole_apply, Entry.entry_samples, Entry.entry_recip, Entry.entry_scaledMeans, Entry.entry_perComponent]
  rw [Entry.paddedRow_apply _ (⟨k.val, by omega⟩ : Fin 512) k rfl, Entry.perComponent_apply]
  unfold foldedForm quad cross
  have ea : ∀ f : Fin 1024,
      shapeCast S16384x1024 (m ((c : Thread nD τ).loc main_arg0) : S16x1024x1024.Idx → EReal)
          Facts₀.shapeCasts_S16x1024x1024_S16384x1024 (ix2 (⟨1024 * b.val + t.val, by omega⟩ : Fin 16384) f)
        = (m ((c : Thread nD τ).loc main_arg0) : S16x1024x1024.Idx → EReal) (ix3 b t f) := fun f =>
    Entry.samples_apply _ b t f _ rfl
  have eT : ∀ (y : S500x1024.Idx → EReal) (f : Fin 1024),
      Entry.paddedT y (ix2 f (⟨k.val, by omega⟩ : Fin 512)) = y (ix2 k f) := fun y f =>
    Entry.paddedT_apply y f _ k rfl
  simp only [ea, eT, Entry.recip_apply, mulf_apply]

/-- The kernel program's run, read: its result array at the folded form, its arguments unchanged. -/
theorem run : θ_run defs (onTc (τ := τ) (main (F := Ideal))) ⟨m, fun _ => 0, ρ⟩ fun r => ∀ c : Dev nD,
      r.2.mem ((c.tc : Thread nD τ).loc main_v25)
        = folded (m ((c : Thread nD τ).loc main_arg0) : S16x1024x1024.Idx → EReal)
            (m ((c : Thread nD τ).loc main_arg1) : S500x1024.Idx → EReal)
            (m ((c : Thread nD τ).loc main_arg2) : S500x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (funext fun i => by
        obtain ⟨b, t, k, rfl⟩ : ∃ (b : Fin 16) (t : Fin 1024) (k : Fin 500), i = ix3 b t k := ⟨i 0, i 1, i 2, eq_ix3 i⟩
        exact result_apply m c b t k),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Folded

end
-- ==== Proof.lean ====
/-
  Diagonal-covariance Gaussian-mixture log-densities, `out (b, t, k) = log N(X (b, t); mu_k, diag cov_k)`, computed
  two ways, and the proof that the two agree on the extended reals where every sample and mean is a real number and
  every variance is a positive real.

  With `q = Σ_f x_f² / cov_kf`, `r = Σ_f x_f · mu_kf / cov_kf`, `s = Σ_f mu_kf² / cov_kf` and the normaliser
  `C_k = −(d/2)·log 2π − ½ · Σ_f log cov_kf`, the log-density is `C_k − ½ · (q − 2r + s)`.
  • One program expands the square in place: `C_k − ½ · ((q − 2r) + s)`, the sums as contractions over the feature axis.
  • The other folds `C_k − ½·s` into one number per component on the host, runs the two contractions `q` and `r`
    as matrix products over row blocks of 1024 samples (the component axis padded from 500 to 512 with zero columns,
    dropped again afterwards), and forms `((C_k − ½·s) − ½·q) + r` per entry.
  The modules: `LogDensity` states both forms; `ExpandedRead` reads the first program's result index by index;
  `EntryTerms`, `RegionEntry`, `BodyAtIndex`, `BlocksToArray`, `KernelRun` read the second's (what the region finds,
  one block's arithmetic at an entry, the sixteen row blocks covering the output, the columns kept); `PositiveFinite`
  reads the precondition element by element; `Agreement` is the identity of real numbers joining the two forms.
  Positivity of the variances is used: at a zero variance `1/cov = +∞` and `log cov = −∞`, and the two groupings of
  the infinite terms differ.
-/
import proofs.«108252_j10831907520642_2_alg».proof.Defs
import proofs.«108252_j10831907520642_2_alg».proof.Proof.Gen.Kernel
import proofs.«108252_j10831907520642_2_alg».proof.Proof.Gen.Kernel.Skeleton
import proofs.«108252_j10831907520642_2_alg».proof.Proof.Gen.Kernel.Launch
import proofs.«108252_j10831907520642_2_alg».proof.Proof.Gen.Kernel.Points
import proofs.«108252_j10831907520642_2_alg».proof.Proof.Gen.Kernel.Frame
import proofs.«108252_j10831907520642_2_alg».proof.Proof.Gen.KernelIdeal
import proofs.«108252_j10831907520642_2_alg».proof.Proof.Gen.KernelIdeal.Skeleton
import proofs.«108252_j10831907520642_2_alg».proof.Proof.Gen.KernelIdeal.Launch
import proofs.«108252_j10831907520642_2_alg».proof.Proof.Gen.KernelIdeal.Points
import proofs.«108252_j10831907520642_2_alg».proof.Proof.Gen.KernelIdeal.Frame
import proofs.«108252_j10831907520642_2_alg».proof.Proof.Gen.ReferenceIdeal
import proofs.«108252_j10831907520642_2_alg».proof.Proof.Gen.Pre_finite_inputs
import proofs.«108252_j10831907520642_2_alg».proof.Proof.Gen.ReferenceIdeal.Run
import proofs.«108252_j10831907520642_2_alg».proof.Proof.Gen.ReferenceIdeal.Read
import proofs.«108252_j10831907520642_2_alg».proof.Proof.LogDensity
import proofs.«108252_j10831907520642_2_alg».proof.Proof.Agreement
import proofs.«108252_j10831907520642_2_alg».proof.Proof.PositiveFinite
import proofs.«108252_j10831907520642_2_alg».proof.Proof.ExpandedRead
import proofs.«108252_j10831907520642_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The program that expands the square runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading on the extended reals. -/
theorem preserves : Cert.preserves_Kernel_KernelIdeal := trivial

/-- From arguments that agree, real samples and means and positive real variances, both programs end with the same
    array: the folded form, which the expanded form equals entry by entry. -/
theorem algebraic : Cert.algebraic_KernelIdeal_ReferenceIdeal := by
  intro m ρ m' ρ' hpre hagree
  refine ⟨fun c => Cert.LogDensity.folded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Folded.run m ρ, ?_⟩
  refine (θ_run Cert.ReferenceIdeal.defs _ _).mono (fun _ h c =>
      ⟨(h c).1.trans ((Cert.ReferenceIdeal.Read.val_main_v25_eq _ _ _).trans ?_), (h c).2⟩)
    (Cert.ReferenceIdeal.Value.run (F := Ideal) m' ρ')
  rw [(hagree c).1, (hagree c).2.1, (hagree c).2.2]
  obtain ⟨hX, hmu, hcov⟩ := Cert.PositiveFinite.of_pre _ _ _ (hpre c)
  funext i
  obtain ⟨b, t, k, rfl⟩ : ∃ (b : Fin 16) (t : Fin 1024) (k : Fin 500), i = ix3 b t k := ⟨i 0, i 1, i 2, eq_ix3 i⟩
  rw [Cert.ReferenceIdeal.Expanded.result_read]
  exact Cert.LogDensity.expanded_eq_folded _ _ _ hX hmu hcov b t k

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
